-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x514x514 : Shape := ⟨4, ![32, 1, 514, 514]⟩
abbrev S32x262144 : Shape := ⟨2, ![32, 262144]⟩
abbrev S1308672 : Shape := ⟨1, ![1308672]⟩
abbrev S_ : Shape := ⟨0, ![]⟩

class Facts : Prop where
  bcast_S_S32x1x514x514 : S_.BroadcastsInDim S32x1x514x514 (![] : Fin 0 → Fin S32x1x514x514.rank)
  reducesTo_S32x1x514x514_S_d0_1_2_3 : S32x1x514x514.ReducesTo [0, 1, 2, 3] S_
  h_S_ : 0 < S_.numel
  bcast_S_S32x262144 : S_.BroadcastsInDim S32x262144 (![] : Fin 0 → Fin S32x262144.rank)
  reducesTo_S32x262144_S_d0_1 : S32x262144.ReducesTo [0, 1] S_
  bcast_S_S1308672 : S_.BroadcastsInDim S1308672 (![] : Fin 0 → Fin S1308672.rank)
  reducesTo_S1308672_S_d0 : S1308672.ReducesTo [0] S_

variable [Facts]

def fn {F : FTy → Type} [FloatOps F] (main_arg0 : FVec F S32x1x514x514 .f32) (main_arg1 : FVec F S32x262144 .f32) (main_arg2 : IVec S1308672 32) (main_arg3 : IVec S1308672 32) (main_arg4 : FVec F S1308672 .f32) : IVec S_ 1 :=
  let main_v0 : FVec F S32x1x514x514 .f32 := Host.absf main_arg0
  let main_cst : FVec F S_ .f32 := constant S_ .f32 0x7F800000#32
  let main_v1 : FVec F S32x1x514x514 .f32 := broadcastInDim S32x1x514x514 ![] bcast_S_S32x1x514x514 main_cst
  let main_v2 : IVec S32x1x514x514 1 := cmpf .olt main_v0 main_v1
  let main_c : IVec S_ 1 := constantI S_ 1 1#1
  let main_v3 : IVec S_ 1 := (fun x v => Host.reduce IntOp.andi x v reducesTo_S32x1x514x514_S_d0_1_2_3 h_S_) main_v2 main_c
  let main_v4 : FVec F S32x262144 .f32 := Host.absf main_arg1
  let main_cst_0 : FVec F S_ .f32 := constant S_ .f32 0x7F800000#32
  let main_v5 : FVec F S32x262144 .f32 := broadcastInDim S32x262144 ![] bcast_S_S32x262144 main_cst_0
  let main_v6 : IVec S32x262144 1 := cmpf .olt main_v4 main_v5
  let main_c_1 : IVec S_ 1 := constantI S_ 1 1#1
  let main_v7 : IVec S_ 1 := (fun x v => Host.reduce IntOp.andi x v reducesTo_S32x262144_S_d0_1 h_S_) main_v6 main_c_1
  let main_v8 : IVec S_ 1 := andi main_v3 main_v7
  let main_v9 : FVec F S1308672 .f32 := Host.absf main_arg4
  let main_cst_2 : FVec F S_ .f32 := constant S_ .f32 0x7F800000#32
  let main_v10 : FVec F S1308672 .f32 := broadcastInDim S1308672 ![] bcast_S_S1308672 main_cst_2
  let main_v11 : IVec S1308672 1 := cmpf .olt main_v9 main_v10
  let main_c_3 : IVec S_ 1 := constantI S_ 1 1#1
  let main_v12 : IVec S_ 1 := (fun x v => Host.reduce IntOp.andi x v reducesTo_S1308672_S_d0 h_S_) main_v11 main_c_3
  let main_v13 : IVec S_ 1 := andi main_v8 main_v12
  main_v13
-- ==== Kernel.lean ====
abbrev S32x1x514x514 : Shape := ⟨4, ![32, 1, 514, 514]⟩
abbrev S32x262144 : Shape := ⟨2, ![32, 262144]⟩
abbrev S1308672 : Shape := ⟨1, ![1308672]⟩
abbrev S1308672x1 : Shape := ⟨2, ![1308672, 1]⟩
abbrev S_ : Shape := ⟨0, ![]⟩
abbrev S32x1308672 : Shape := ⟨2, ![32, 1308672]⟩
abbrev S1308672x32 : Shape := ⟨2, ![1308672, 32]⟩
abbrev S262144x32 : Shape := ⟨2, ![262144, 32]⟩
abbrev S32x1x512x512 : Shape := ⟨4, ![32, 1, 512, 512]⟩
abbrev S32x512x512 : Shape := ⟨3, ![32, 512, 512]⟩
abbrev S1x1 : Shape := ⟨2, ![1, 1]⟩
abbrev S32x32768 : Shape := ⟨2, ![32, 32768]⟩
abbrev S32 : Shape := ⟨1, ![32]⟩
abbrev S32x1 : Shape := ⟨2, ![32, 1]⟩
abbrev S1 : Shape := ⟨1, ![1]⟩

abbrev nBuf : Space → Nat
  | .hbm => 28
  | .vmem => 6
  | .smem => 0
  | _ => 0

abbrev bufTy : (tb : Table) → Fin (tcTables nBuf tb) → BufTy
  | .hbm, ⟨0, _⟩ => ⟨S32x1x514x514, .f32⟩
  | .hbm, ⟨1, _⟩ => ⟨S32x262144, .f32⟩
  | .hbm, ⟨2, _⟩ => ⟨S1308672, .i32⟩
  | .hbm, ⟨3, _⟩ => ⟨S1308672, .i32⟩
  | .hbm, ⟨4, _⟩ => ⟨S1308672, .f32⟩
  | .hbm, ⟨5, _⟩ => ⟨S1308672x1, .f32⟩
  | .hbm, ⟨6, _⟩ => ⟨S_, .i32⟩
  | .hbm, ⟨7, _⟩ => ⟨S1308672, .i32⟩
  | .hbm, ⟨8, _⟩ => ⟨S1308672, .i1⟩
  | .hbm, ⟨9, _⟩ => ⟨S_, .i32⟩
  | .hbm, ⟨10, _⟩ => ⟨S1308672, .i32⟩
  | .hbm, ⟨11, _⟩ => ⟨S1308672, .i32⟩
  | .hbm, ⟨12, _⟩ => ⟨S1308672, .i32⟩
  | .hbm, ⟨13, _⟩ => ⟨S1308672x1, .i32⟩
  | .hbm, ⟨14, _⟩ => ⟨S32x1308672, .f32⟩
  | .hbm, ⟨15, _⟩ => ⟨S1308672x32, .f32⟩
  | .hbm, ⟨16, _⟩ => ⟨S1308672x32, .f32⟩
  | .hbm, ⟨17, _⟩ => ⟨S1308672x32, .f32⟩
  | .hbm, ⟨18, _⟩ => ⟨S_, .f32⟩
  | .hbm, ⟨19, _⟩ => ⟨S262144x32, .f32⟩
  | .hbm, ⟨20, _⟩ => ⟨S1308672x1, .i32⟩
  | .hbm, ⟨21, _⟩ => ⟨S262144x32, .f32⟩
  | .hbm, ⟨22, _⟩ => ⟨S32x262144, .f32⟩
  | .hbm, ⟨23, _⟩ => ⟨S32x1x512x512, .f32⟩
  | .hbm, ⟨24, _⟩ => ⟨S32x512x512, .f32⟩
  | .hbm, ⟨25, _⟩ => ⟨S32x262144, .f32⟩
  | .hbm, ⟨26, _⟩ => ⟨S1x1, .f32⟩
  | .hbm, ⟨27, _⟩ => ⟨S_, .f32⟩
  | .local _ .vmem, ⟨0, _⟩ => ⟨S32x32768, .f32⟩
  | .local _ .vmem, ⟨1, _⟩ => ⟨S32x32768, .f32⟩
  | .local _ .vmem, ⟨2, _⟩ => ⟨S32x32768, .f32⟩
  | .local _ .vmem, ⟨3, _⟩ => ⟨S32x32768, .f32⟩
  | .local _ .vmem, ⟨4, _⟩ => ⟨S1x1, .f32⟩
  | .local _ .vmem, ⟨5, _⟩ => ⟨S1x1, .f32⟩
  | _, _ => ⟨S32x1x514x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v18 : BitVec 1 := Scalar.cmpi .eq arg0 c7_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bcast_S1308672_S1308672x1_0 : S1308672.BroadcastsInDim S1308672x1 (![0] : Fin 1 → Fin S1308672x1.rank)
  bcast_S_S1308672 : S_.BroadcastsInDim S1308672 (![] : Fin 0 → Fin S1308672.rank)
  transposes_S32x1308672_S1308672x32_1_0 : S32x1308672.Transposes [1, 0] S1308672x32
  bcast_S1308672x1_S1308672x32_0_1 : S1308672x1.BroadcastsInDim S1308672x32 (![0, 1] : Fin 2 → Fin S1308672x32.rank)
  bcast_S_S262144x32 : S_.BroadcastsInDim S262144x32 (![] : Fin 0 → Fin S262144x32.rank)
  transposes_S262144x32_S32x262144_1_0 : S262144x32.Transposes [1, 0] S32x262144
  slices_S32x1x514x514_S32x1x512x512_0_0_1_1 : S32x1x514x514.Slices ![0, 0, 1, 1] S32x1x512x512
  shapeCasts_S32x1x512x512_S32x512x512 : S32x1x512x512.ShapeCasts S32x512x512
  shapeCasts_S32x512x512_S32x262144 : S32x512x512.ShapeCasts S32x262144
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x32768_S32x32768_0_0 : ∀ a, (![0, 0] : Fin 2 → Nat) a + S32x32768.size a ≤ S32x32768.size a
  h_S32x32768 : 0 < S32x32768.numel
  shapeCasts_S32x32768_S32x32768 : S32x32768.ShapeCasts S32x32768
  reduces_S32x32768_S32 : S32x32768.Reduces [1] S32
  shapeCasts_S32_S32x1 : S32.ShapeCasts S32x1
  reduces_S32x1_S1 : S32x1.Reduces [0] S1
  shapeCasts_S1_S1x1 : S1.ShapeCasts S1x1
  shapeCasts_S1x1_S_ : S1x1.ShapeCasts S_
  gather_S32x262144_S1308672x1_S32x1308672_0_1_n_n_1_1_321_wf : GatherDims.WF S32x262144 S1308672x1 S32x1308672 [0] [1] [] [1] [] 1 ![32, 1]
  scatter_S262144x32_S1308672x1_S1308672x32_1_0_0_1_wf : ScatterDims.WF S262144x32 S1308672x1 S1308672x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32768.size a ≤ S32x262144.size a
  hwx0_0 : ∀ i : grid0.Coords, EltTy.bits .f32 = 32 ∨ (Rect.block (s := S32x262144) S32x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32768.size a ≤ S32x262144.size a
  hwx0_1 : ∀ i : grid0.Coords, EltTy.bits .f32 = 32 ∨ (Rect.block (s := S32x262144) S32x32768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S32x262144_S1308672x1_S32x1308672_0_1_n_n_1_1_321 : GatherDims S32x262144 S1308672x1 S32x1308672 where
  offsetDims := [0]
  collapsedSliceDims := [1]
  operandBatchingDims := []
  startIndicesBatchingDims := []
  startIndexMap := [1]
  indexVectorDim := 1
  sliceSizes := ![32, 1]
  wf := gather_S32x262144_S1308672x1_S32x1308672_0_1_n_n_1_1_321_wf
def scatter_S262144x32_S1308672x1_S1308672x32_1_0_0_1 : ScatterDims S262144x32 S1308672x1 S1308672x32 where
  updateWindowDims := [1]
  insertedWindowDims := [0]
  scatterDimsToOperandDims := [0]
  indexVectorDim := 1
  wf := scatter_S262144x32_S1308672x1_S1308672x32_1_0_0_1_wf

abbrev win0_0 : Pipeline.Window sig grid0 :=
  Pipeline.Window.ofSpec (Memref.whole main_v17) S32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S32x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x1x514x514 : Shape := ⟨4, ![32, 1, 514, 514]⟩
abbrev S32x262144 : Shape := ⟨2, ![32, 262144]⟩
abbrev S1308672 : Shape := ⟨1, ![1308672]⟩
abbrev S1308672x1 : Shape := ⟨2, ![1308672, 1]⟩
abbrev S_ : Shape := ⟨0, ![]⟩
abbrev S32x1308672 : Shape := ⟨2, ![32, 1308672]⟩
abbrev S1308672x32 : Shape := ⟨2, ![1308672, 32]⟩
abbrev S262144x32 : Shape := ⟨2, ![262144, 32]⟩
abbrev S32x1x512x512 : Shape := ⟨4, ![32, 1, 512, 512]⟩
abbrev S32x512x512 : Shape := ⟨3, ![32, 512, 512]⟩
abbrev S32 : Shape := ⟨1, ![32]⟩

abbrev nBuf : Space → Nat
  | .hbm => 34
  | .vmem => 0
  | .smem => 0
  | _ => 0

abbrev bufTy : (tb : Table) → Fin (tcTables nBuf tb) → BufTy
  | .hbm, ⟨0, _⟩ => ⟨S32x1x514x514, .f32⟩
  | .hbm, ⟨1, _⟩ => ⟨S32x262144, .f32⟩
  | .hbm, ⟨2, _⟩ => ⟨S1308672, .i32⟩
  | .hbm, ⟨3, _⟩ => ⟨S1308672, .i32⟩
  | .hbm, ⟨4, _⟩ => ⟨S1308672, .f32⟩
  | .hbm, ⟨5, _⟩ => ⟨S1308672x1, .f32⟩
  | .hbm, ⟨6, _⟩ => ⟨S_, .i32⟩
  | .hbm, ⟨7, _⟩ => ⟨S1308672, .i32⟩
  | .hbm, ⟨8, _⟩ => ⟨S1308672, .i1⟩
  | .hbm, ⟨9, _⟩ => ⟨S_, .i32⟩
  | .hbm, ⟨10, _⟩ => ⟨S1308672, .i32⟩
  | .hbm, ⟨11, _⟩ => ⟨S1308672, .i32⟩
  | .hbm, ⟨12, _⟩ => ⟨S1308672, .i32⟩
  | .hbm, ⟨13, _⟩ => ⟨S1308672x1, .i32⟩
  | .hbm, ⟨14, _⟩ => ⟨S32x1308672, .f32⟩
  | .hbm, ⟨15, _⟩ => ⟨S1308672x32, .f32⟩
  | .hbm, ⟨16, _⟩ => ⟨S1308672x32, .f32⟩
  | .hbm, ⟨17, _⟩ => ⟨S1308672x32, .f32⟩
  | .hbm, ⟨18, _⟩ => ⟨S_, .f32⟩
  | .hbm, ⟨19, _⟩ => ⟨S262144x32, .f32⟩
  | .hbm, ⟨20, _⟩ => ⟨S1308672x1, .i32⟩
  | .hbm, ⟨21, _⟩ => ⟨S262144x32, .f32⟩
  | .hbm, ⟨22, _⟩ => ⟨S32x262144, .f32⟩
  | .hbm, ⟨23, _⟩ => ⟨S32x1x512x512, .f32⟩
  | .hbm, ⟨24, _⟩ => ⟨S32x512x512, .f32⟩
  | .hbm, ⟨25, _⟩ => ⟨S32x262144, .f32⟩
  | .hbm, ⟨26, _⟩ => ⟨S32x262144, .f32⟩
  | .hbm, ⟨27, _⟩ => ⟨S32x262144, .f32⟩
  | .hbm, ⟨28, _⟩ => ⟨S_, .f32⟩
  | .hbm, ⟨29, _⟩ => ⟨S32, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S32x1x514x514, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S1308672_S1308672x1_0 : S1308672.BroadcastsInDim S1308672x1 (![0] : Fin 1 → Fin S1308672x1.rank)
  bcast_S_S1308672 : S_.BroadcastsInDim S1308672 (![] : Fin 0 → Fin S1308672.rank)
  transposes_S32x1308672_S1308672x32_1_0 : S32x1308672.Transposes [1, 0] S1308672x32
  bcast_S1308672x1_S1308672x32_0_1 : S1308672x1.BroadcastsInDim S1308672x32 (![0, 1] : Fin 2 → Fin S1308672x32.rank)
  bcast_S_S262144x32 : S_.BroadcastsInDim S262144x32 (![] : Fin 0 → Fin S262144x32.rank)
  transposes_S262144x32_S32x262144_1_0 : S262144x32.Transposes [1, 0] S32x262144
  slices_S32x1x514x514_S32x1x512x512_0_0_1_1 : S32x1x514x514.Slices ![0, 0, 1, 1] S32x1x512x512
  shapeCasts_S32x1x512x512_S32x512x512 : S32x1x512x512.ShapeCasts S32x512x512
  shapeCasts_S32x512x512_S32x262144 : S32x512x512.ShapeCasts S32x262144
  reducesTo_S32x262144_S32_d1 : S32x262144.ReducesTo [1] S32
  h_S_ : 0 < S_.numel
  reducesTo_S32_S_d0 : S32.ReducesTo [0] S_
  gather_S32x262144_S1308672x1_S32x1308672_0_1_n_n_1_1_321_wf : GatherDims.WF S32x262144 S1308672x1 S32x1308672 [0] [1] [] [1] [] 1 ![32, 1]
  scatter_S262144x32_S1308672x1_S1308672x32_1_0_0_1_wf : ScatterDims.WF S262144x32 S1308672x1 S1308672x32 [1] [0] [0] 1

variable [Facts₀]

def gather_S32x262144_S1308672x1_S32x1308672_0_1_n_n_1_1_321 : GatherDims S32x262144 S1308672x1 S32x1308672 where
  offsetDims := [0]
  collapsedSliceDims := [1]
  operandBatchingDims := []
  startIndicesBatchingDims := []
  startIndexMap := [1]
  indexVectorDim := 1
  sliceSizes := ![32, 1]
  wf := gather_S32x262144_S1308672x1_S32x1308672_0_1_n_n_1_1_321_wf
def scatter_S262144x32_S1308672x1_S1308672x32_1_0_0_1 : ScatterDims S262144x32 S1308672x1 S1308672x32 where
  updateWindowDims := [1]
  insertedWindowDims := [0]
  scatterDimsToOperandDims := [0]
  indexVectorDim := 1
  wf := scatter_S262144x32_S1308672x1_S1308672x32_1_0_0_1_wf

class Facts : Prop extends Facts₀ where

variable [Facts]
-- ==== Proof.Pieces.lean ====
/-
  What the body leaves in the running total, and in the output block, case by case, as the body's own
  arithmetic of what it read.

  The grid's first point resets the [1, 1] running total to the zero word and then adds the point's block sum to
  what it reads back, which is that zero. Every later point adds its block sum to the total the point before
  left. The last point also reads the total it has just stored and writes it, scaled, to the output block.
  Each store covers its whole one-entry buffer, so reading the stores back gives the last stored value, and a
  load of a whole buffer reads the buffer's contents.
-/
import proofs.«159889_j25202868093603_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The first point: the total becomes the block sum added to the zero the reset stored. -/
theorem total_first (c : Dev nD) (i : grid0.Coords) (a1 : Memref sig .tc .vmem S32x32768 .f32) (h1 : a1.IsWhole)
    (a2 : Memref sig .tc .vmem S32x32768 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S32x32768 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S32x32768) hz]

/-- A middle point: the total becomes the block sum added to the total the point before left. -/
theorem total_middle (c : Dev nD) (i : grid0.Coords) (a1 : Memref sig .tc .vmem S32x32768 .f32) (h1 : a1.IsWhole)
    (a2 : Memref sig .tc .vmem S32x32768 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S32x32768 .f32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero hz]
  simp only [View.readAt_eq_ld, h1.read_unread, h2.read_unread, h4.read_unread, View.ld_unit_zero (S := S32x32768) hz,
    View.ld_unit_zero (S := S1x1) hz]

/-- The last point: the total likewise. -/
theorem total_last (c : Dev nD) (i : grid0.Coords) (a1 : Memref sig .tc .vmem S32x32768 .f32) (h1 : a1.IsWhole)
    (a2 : Memref sig .tc .vmem S32x32768 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S32x32768 .f32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S32x32768) hz,
    View.ld_unit_zero (S := S1x1) hz]

/-- The last point: the output block is the scaling of the total the point has just stored. -/
theorem out_last (c : Dev nD) (i : grid0.Coords) (a1 : Memref sig .tc .vmem S32x32768 .f32) (h1 : a1.IsWhole)
    (a2 : Memref sig .tc .vmem S32x32768 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S32x32768 .f32) (xs0 : Vec F S1x1 .f32) :
    out0_C_2 c i a1 h1 a2 h2 a3 h3 a4 h4 hc0 hc1 x0 x1 xs0 = k0_pay3 (k0_pay2 x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S32x32768) hz,
    View.ld_unit_zero (S := S1x1) hz]

/-! ## Point by point

The running total after a point, and the output block after the last point, in terms of the point's two input
blocks and the total the point before left. -/

variable (m : (ℓ : Loc nD τ sig) → Buf (Elt F) ℓ)

/-- After the first point: the first blocks' sum added to the reset's zero. -/
theorem total_zero (c : Dev nD) (t : Fin cfg0.N) (h0 : t.val % 8 = 0) :
    (outsAt0 m c t.val t.isLt).2 = k0_pay2 (iblk m c 0 t) (iblk m c 1 t) (k0_pay1 (F := F)) := by
  have h1 : ¬t.val % 8 = 7 := by omega
  rw [outsAt0_A m c t h0 h1]
  exact total_first c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- After a later point: the point's blocks' sum added to the total the point before left. -/
theorem total_succ (c : Dev nD) (t : Fin cfg0.N) (h0 : ¬t.val % 8 = 0) :
    (outsAt0 m c t.val t.isLt).2 = k0_pay2 (iblk m c 0 t) (iblk m c 1 t)
      (outsAt0 m c (t.val - 1) (Nat.lt_of_le_of_lt (Nat.sub_le _ _) t.isLt)).2 := by
  by_cases h1 : t.val % 8 = 7
  · rw [outsAt0_C m c t h0 h1]
    exact total_last c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    exact total_middle c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- After the last point the output block is the scaling of the total the point has just formed. -/
theorem out_seven (c : Dev nD) (t : Fin cfg0.N) (h1 : t.val % 8 = 7) :
    (outsAt0 m c t.val t.isLt).1 = k0_pay3 (k0_pay2 (iblk m c 0 t) (iblk m c 1 t)
      (outsAt0 m c (t.val - 1) (Nat.lt_of_le_of_lt (Nat.sub_le _ _) t.isLt)).2) := by
  have h0 : ¬t.val % 8 = 0 := by omega
  rw [outsAt0_C m c t h0 h1]
  exact out_last c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

end Cert.KernelIdeal.Pieces

end
-- ==== Proof.SumLaw.lean ====
/-
  The arithmetic that joins the two sides, on the extended reals, with no array in sight.

  A row of 262144 entries is cut into eight consecutive stretches of 32768 entries. Summing a row at once, and
  then the 32 rows, gives the same extended real as summing, stretch by stretch, all 32 rows of the stretch and
  adding the eight partial sums: addition of extended reals is commutative and associative, infinities
  included, so no finiteness is asked. Dividing by 32 is multiplying by 1/32, also at the infinities, and the
  two float words 32.0 and 0.03125 denote exactly 32 and 1/32.
-/
import Idealize.ShloMosaic.PureOps.Ideal.Laws
import Idealize.ShloMosaic.Lib.ValueIdx

noncomputable section

open scoped BigOperators

namespace Cert.SqErr

open Idealize.ShloMosaic Idealize.ShloMosaic.ValueIdx

/-- The square of the difference of two extended reals. -/
def sqd (a b : EReal) : EReal := (a - b) * (a - b)

/-- Entry `l` of stretch `t` is column `32768 t + l` of the row. -/
def col (t : Fin 8) (l : Fin 32768) : Fin 262144 :=
  ⟨32768 * t.val + l.val, by have := t.isLt; have := l.isLt; omega⟩

theorem col_val (t : Fin 8) (l : Fin 32768) : (col t l).val = 32768 * t.val + l.val := rfl

/-- A sum over the 262144 columns is the sum over the eight stretches of each stretch's sum. -/
theorem sum_cols (g : Fin 262144 → EReal) :
    ∑ k : Fin 262144, g k = ∑ t : Fin 8, ∑ l : Fin 32768, g (col t l) := by
  rw [← Equiv.sum_comp (finProdFinEquiv : Fin 8 × Fin 32768 ≃ Fin (8 * 32768)) g, Fintype.sum_prod_type]
  refine Finset.sum_congr rfl fun t _ => Finset.sum_congr rfl fun l _ => congrArg g (Fin.ext ?_)
  show l.val + 32768 * t.val = 32768 * t.val + l.val
  omega

/-- The sum of the squared differences of two [32, 262144] arrays over stretch `t`: all 32 rows, the stretch's
    32768 columns. -/
def tileSum (A B : (⟨2, ![32, 262144]⟩ : Shape).Idx → EReal) (t : Fin 8) : EReal :=
  ∑ r : Fin 32, ∑ l : Fin 32768, sqd (A (ix2 r (col t l))) (B (ix2 r (col t l)))

/-- Row by row over whole rows, or stretch by stretch over all rows: one sum. -/
theorem rows_eq_tiles (A B : (⟨2, ![32, 262144]⟩ : Shape).Idx → EReal) :
    ∑ r : Fin 32, ∑ k : Fin 262144, sqd (A (ix2 r k)) (B (ix2 r k)) = ∑ t : Fin 8, tileSum A B t :=
  (Finset.sum_congr rfl fun r _ => sum_cols fun k => sqd (A (ix2 r k)) (B (ix2 r k))).trans Finset.sum_comm

/-- The float word of 32.0 denotes 32. -/
theorem ofBits_32 : Ideal.ofBits .f32 0x42000000#32 = ((32 : ℝ) : EReal) := by
  simp [Ideal.ofBits, Ideal.ieee, -EReal.coe_mul]; norm_num

/-- The float word of 0.03125 denotes 1/32. -/
theorem ofBits_inv32 : Ideal.ofBits .f32 0x3D000000#32 = ((1 / 32 : ℝ) : EReal) := by
  simp [Ideal.ofBits, Ideal.ieee, -EReal.coe_mul]; norm_num

/-- The quotient by 32.0 is the product with 0.03125, on every extended real. -/
theorem div_32 (x : EReal) :
    Ideal.div x (Ideal.ofBits .f32 0x42000000#32) = x * Ideal.ofBits .f32 0x3D000000#32 := by
  rw [ofBits_32, ofBits_inv32]
  exact Ideal.div_coe (by norm_num) x

end Cert.SqErr

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.Payload.lean ====
/-
  What the kernel body computes at one grid point, on the extended reals.

  The body takes the point's two [32, 32768] blocks `x0`, `x1` and the [1, 1] running total `xs`. It squares
  the entrywise difference, sums each row's 32768 entries, keeps the 32 row sums as a column, sums the column,
  and adds the result to the running total: the new total is `xs + Σ_r Σ_l (x0 (r, l) - x1 (r, l))²`. At the
  last point the total is multiplied by the float word of 0.03125. The reset stores the zero word, which
  denotes 0.
-/
import proofs.«159889_j25202868093603_1_alg».proof.Proof.Gen.KernelIdeal.Skeleton
import proofs.«159889_j25202868093603_1_alg».proof.Proof.SumLaw
import proofs.«159889_j25202868093603_1_alg».proof.Proof.LibKeepdims
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.SqErr

/-- The sum, over a whole [32, 32768] block, of the squared differences of two blocks. -/
def blockSum (x0 x1 : (⟨2, ![32, 32768]⟩ : Shape).Idx → EReal) : EReal :=
  ∑ r : Fin 32, ∑ l : Fin 32768, sqd (x0 (ix2 r l)) (x1 (ix2 r l))

/-- Putting the summed row coordinate `k` back into the reduced index `u` gives the entry `(k, u)`. -/
theorem lift_rows {m n : ℕ} (h : (⟨2, ![m, n]⟩ : Shape).Reduces [0] (⟨1, ![n]⟩ : Shape)) (u : Fin n)
    (k : Fin ((⟨2, ![m, n]⟩ : Shape).size 0)) : h.lift (ix1 u) k = ix2 (⟨k.val, k.isLt⟩ : Fin m) u := by
  funext c; apply Fin.ext
  fin_cases c <;> rfl

/-- A float sum along the first axis from the zero word, read at column `u`, is the sum of that column's entries. -/
theorem colSum_apply {m n : ℕ} (src : FVec Ideal ⟨2, ![m, n]⟩ .f32)
    (h : (⟨2, ![m, n]⟩ : Shape).Reduces [0] (⟨1, ![n]⟩ : Shape)) (hφ : FKind.Formats .f32)
    (hacc : (0x00000000#32 : BitVec 32) = 0x00000000#32) (u : Fin n) :
    multiReduction .add [0] (⟨1, ![n]⟩ : Shape) src 0x00000000#32 h hφ hacc (ix1 u) = ∑ k : Fin m, src (ix2 k u) := by
  refine (Ideal.multiReduction_add_single src 0x00000000#32 h hφ hacc (ix1 u)).trans ?_
  exact Finset.sum_congr rfl fun k _ => congrArg src (lift_rows h u k)

/-- The running total after the body: the total before, plus the block's sum of squared differences. -/
theorem pay2_apply (x0 x1 : Vec Ideal S32x32768 .f32) (xs : Vec Ideal S1x1 .f32) (p q : Fin 1) :
    k0_pay2 (F := Ideal) x0 x1 xs (ix2 p q) = xs (ix2 p q) + blockSum x0 x1 := by
  unfold k0_pay2
  refine (congrFun (shapeCast_self _ _) _).trans ?_
  refine congrArg (xs (ix2 p q) + ·) ?_
  refine (Cert.LibKeepdims.shapeCast_a_a1_apply _ shapeCasts_S1_S1x1 p q).trans ?_
  refine (colSum_apply _ reduces_S32x1_S1 _ _ p).trans ?_
  refine Finset.sum_congr rfl fun r _ => ?_
  refine (Cert.LibKeepdims.shapeCast_a_a1_apply _ shapeCasts_S32_S32x1 r p).trans ?_
  refine (Cert.LibKeepdims.rowSum_apply _ reduces_S32x32768_S32 _ _ r).trans ?_
  refine Finset.sum_congr rfl fun l _ => ?_
  rw [shapeCast_self, shapeCast_self]
  rfl

/-- The reset stores 0. -/
theorem pay1_apply (y : S1x1.Idx) : k0_pay1 (F := Ideal) y = 0 := by
  unfold k0_pay1
  refine (congrFun (shapeCast_self _ _) _).trans ?_
  exact Ideal.ofBits_zero_f32

/-- The last point's output: the total times the float word of 0.03125. -/
theorem pay3_apply (v : Vec Ideal S1x1 .f32) (y : S1x1.Idx) :
    k0_pay3 (F := Ideal) v y = v y * Ideal.ofBits .f32 0x3D000000#32 := rfl

end Cert.KernelIdeal.Payload

end
-- ==== Proof.Blocks.lean ====
/-
  The two operands of the call, and the blocks the grid points are handed.

  The call's operands are [32, 262144] arrays `A` and `B`. Grid point `t` is handed, of each, the block of all
  32 rows and columns `32768 t … 32768 t + 32767`: entry `(r, l)` of the block is entry `(r, 32768 t + l)` of the
  array. So the sum of squared differences of the two blocks at point `t` is stretch `t`'s sum.
-/
import proofs.«159889_j25202868093603_1_alg».proof.Proof.Pieces
import proofs.«159889_j25202868093603_1_alg».proof.Proof.Payload

noncomputable section

open scoped BigOperators
open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Payload Cert.SqErr Idealize.ShloMosaic.ValueIdx

variable (m : (ℓ : Loc nD τ sig) → Buf (Elt Ideal) ℓ) (ρ : Dev nD → PrngReg)

/-- The call's first operand (the array the first window stages) as the call finds it. -/
def opA (c : Dev nD) : (⟨2, ![32, 262144]⟩ : Shape).Idx → EReal := V m c (Pipeline.arrRef spec0 0)
/-- The call's second operand (the array the second window stages) as the call finds it. -/
def opB (c : Dev nD) : (⟨2, ![32, 262144]⟩ : Shape).Idx → EReal := V m c (Pipeline.arrRef spec0 1)

/-- Both input windows' block at point `t` starts at row 0 and at column block `t`. -/
theorem index0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem index1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

/-- Entry `(r, l)` of the first window's block at point `t` is entry `(r, 32768 t + l)` of the first operand: the
    block's row offset is 0 and its column offset 32768 t. -/
theorem iblk0_apply (c : Dev nD) (t : Fin cfg0.N) (t' : Fin 8) (ht : t'.val = t.val) (r : Fin 32) (l : Fin 32768) :
    (iblk m c 0 t : Vec Ideal S32x32768 .f32) (ix2 r l) = opA m c (ix2 r (col t' l)) := by
  have hi := index0 t
  unfold iblk opA
  generalize V m c (Pipeline.arrRef spec0 0) = X
  rw [View.read_apply]
  have he : ((cfg0.win 0).blk t).view.emb (ix2 r l) = ix2 r (col t' l) := by
    funext a; apply Fin.ext
    match a with
    | ⟨0, _⟩ => show win0_0.index t 0 * 32 + 1 * r.val = r.val; rw [hi.1]; omega
    | ⟨1, _⟩ => show win0_0.index t 1 * 32768 + 1 * l.val = 32768 * t'.val + l.val; rw [hi.2, ht]; omega
  rw [he]
  exact @eq_of_heq EReal _ _ (cast_heq _ _)

/-- The same for the second window and the second operand. -/
theorem iblk1_apply (c : Dev nD) (t : Fin cfg0.N) (t' : Fin 8) (ht : t'.val = t.val) (r : Fin 32) (l : Fin 32768) :
    (iblk m c 1 t : Vec Ideal S32x32768 .f32) (ix2 r l) = opB m c (ix2 r (col t' l)) := by
  have hi := index1 t
  unfold iblk opB
  generalize V m c (Pipeline.arrRef spec0 1) = X
  rw [View.read_apply]
  have he : ((cfg0.win 1).blk t).view.emb (ix2 r l) = ix2 r (col t' l) := by
    funext a; apply Fin.ext
    match a with
    | ⟨0, _⟩ => show win0_1.index t 0 * 32 + 1 * r.val = r.val; rw [hi.1]; omega
    | ⟨1, _⟩ => show win0_1.index t 1 * 32768 + 1 * l.val = 32768 * t'.val + l.val; rw [hi.2, ht]; omega
  rw [he]
  exact @eq_of_heq EReal _ _ (cast_heq _ _)

/-- So the sum of squared differences of the two blocks at point `t` is stretch `t`'s sum. -/
theorem blockSum_iblk (c : Dev nD) (t : Fin cfg0.N) (t' : Fin 8) (ht : t'.val = t.val) :
    blockSum (iblk m c 0 t) (iblk m c 1 t) = tileSum (opA m c) (opB m c) t' := by
  unfold blockSum tileSum
  exact Finset.sum_congr rfl fun r _ => Finset.sum_congr rfl fun l _ =>
    congrArg₂ sqd (iblk0_apply m c t t' ht r l) (iblk1_apply m c t t' ht r l)

end Cert.KernelIdeal.Accum

end
-- ==== Proof.Accum.lean ====
/-
  The kernel's output array, on the extended reals.

  The call's two operands are [32, 262144] arrays `A` and `B`; grid point `t` is handed columns
  `32768 t … 32768 t + 32767` of all 32 rows of each. By induction on the point, the running total after point
  `n` is the sum over the stretches `0 … n` of each stretch's sum of squared differences; after the eighth point
  that is the sum over every stretch, and the one-entry output block the last point stores holds this total
  times the float word of 0.03125.
-/
import proofs.«159889_j25202868093603_1_alg».proof.Proof.Blocks

noncomputable section

open scoped BigOperators
open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Payload Cert.SqErr Idealize.ShloMosaic.ValueIdx

variable (m : (ℓ : Loc nD τ sig) → Buf (Elt Ideal) ℓ) (ρ : Dev nD → PrngReg)

/-- Stretch `s`'s sum; `0` past the eighth stretch. -/
def tileAt (c : Dev nD) (s : ℕ) : EReal := if h : s < 8 then tileSum (opA m c) (opB m c) ⟨s, h⟩ else 0

/-- The running total after point `n` is the sum of the stretches `0 … n`. -/
theorem total_eq (c : Dev nD) : ∀ (n : ℕ) (h : n < cfg0.N) (p q : Fin 1),
    (outsAt0 m c n h).2 (ix2 p q) = ∑ s ∈ Finset.range (n + 1), tileAt m c s
  | 0, h, p, q => by
    refine (congrFun (Pieces.total_zero m c ⟨0, h⟩ rfl) (ix2 p q)).trans ?_
    refine (pay2_apply (iblk m c 0 ⟨0, h⟩) (iblk m c 1 ⟨0, h⟩) _ p q).trans ?_
    rw [pay1_apply, zero_add, Finset.sum_range_one]
    unfold tileAt
    rw [dif_pos (by decide : 0 < 8)]
    exact blockSum_iblk m c ⟨0, h⟩ ⟨0, by decide⟩ rfl
  | n + 1, h, p, q => by
    have h8 : n + 1 < 8 := lt_of_lt_of_eq h (show cfg0.N = 8 from N_0)
    refine (congrFun (Pieces.total_succ m c ⟨n + 1, h⟩ (by dsimp only; omega)) (ix2 p q)).trans ?_
    refine (pay2_apply (iblk m c 0 ⟨n + 1, h⟩) (iblk m c 1 ⟨n + 1, h⟩) _ p q).trans ?_
    rw [Finset.sum_range_succ _ (n + 1)]
    refine congrArg₂ (· + ·) (total_eq c n (Nat.lt_of_succ_lt h) p q) ?_
    unfold tileAt
    rw [dif_pos h8]
    exact blockSum_iblk m c ⟨n + 1, h⟩ ⟨n + 1, h8⟩ rfl

/-- The sum of squared differences over the two whole operands, stretch by stretch. -/
def total (c : Dev nD) : EReal := ∑ t : Fin 8, tileSum (opA m c) (opB m c) t

theorem range_total (c : Dev nD) : ∑ s ∈ Finset.range 8, tileAt m c s = total m c := by
  unfold total
  rw [← Fin.sum_univ_eq_sum_range (fun s => tileAt m c s) 8]
  exact Finset.sum_congr rfl fun t _ => by unfold tileAt; rw [dif_pos t.isLt]

/-- After the last point the output block holds the total times the float word of 0.03125. -/
theorem out_eq (c : Dev nD) (t : Fin cfg0.N) (h7 : t.val % 8 = 7) (p q : Fin 1) :
    (outsAt0 m c t.val t.isLt).1 (ix2 p q) = total m c * Ideal.ofBits .f32 0x3D000000#32 := by
  obtain ⟨n, hn⟩ := t
  have h8 : n < 8 := lt_of_lt_of_eq hn (show cfg0.N = 8 from N_0)
  obtain rfl : n = 7 := by dsimp only at h7; omega
  refine (congrFun (Pieces.out_seven m c ⟨7, hn⟩ rfl) (ix2 p q)).trans ?_
  refine (pay3_apply _ (ix2 p q)).trans ?_
  refine congrArg (· * Ideal.ofBits .f32 0x3D000000#32) ?_
  refine (pay2_apply (iblk m c 0 ⟨7, hn⟩) (iblk m c 1 ⟨7, hn⟩) _ p q).trans ?_
  rw [← range_total, Finset.sum_range_succ _ 7]
  refine congrArg₂ (· + ·) (total_eq m c 6 (Nat.lt_of_succ_lt hn) p q) ?_
  unfold tileAt
  rw [dif_pos (by decide : 7 < 8)]
  exact blockSum_iblk m c ⟨7, hn⟩ ⟨7, by decide⟩ rfl

end Cert.KernelIdeal.Accum

end
-- ==== Proof.Final.lean ====
/-
  The kernel's output array after the run.

  The output window's block is the whole one-entry array, and it is written back once, after the last grid
  point; what is written is the block the last point stored, the total times the float word of 0.03125. So the
  array ends holding that value.
-/
import proofs.«159889_j25202868093603_1_alg».proof.Proof.Accum

noncomputable section

open scoped BigOperators
open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Payload Cert.SqErr Idealize.ShloMosaic.ValueIdx

variable (m : (ℓ : Loc nD τ sig) → Buf (Elt Ideal) ℓ) (ρ : Dev nD → PrngReg)

/-- The output array after the run: its one entry is the total times the float word of 0.03125. -/
def result (c : Dev nD) : Buf (Elt Ideal) ((c : Thread nD τ).loc main_v18) :=
  fun _ => total m c * Ideal.ofBits .f32 0x3D000000#32

/-- The one write-back, after the last point, writes it. -/
theorem flushed_eq (c : Dev nD) (t : Fin cfg0.N) (hf : (cfg0.win 2).flush t = true) :
    (dats m 0 c).flushed 2 t = ((cfg0.win 2).blk t).view.read (Elt Ideal) (result m c) := by
  have h7 := (flush0_2 t).mp hf
  funext y
  show (dats m 0 c).after 2 t ((cfg0.win 2).xinj (grid0.coords t) y) = _
  rw [after0_2, View.read_apply]
  obtain ⟨p, q, e⟩ : ∃ p q : Fin 1, (cfg0.win 2).xinj (grid0.coords t) y = ix2 p q := ⟨_, _, eq_ix2 _⟩
  rw [e, out_eq m c t h7 p q]
  exact (@eq_of_heq EReal _ _ (cast_heq _ _)).symm

/-- The last point's block is the whole one-entry array, so the array ends holding `result`. -/
theorem final (c : Dev nD) : (dats m 0 c).arrAt 2 cfg0.N = result m c :=
  (dats m 0 c).arrAt_eq_of_cover 2 (result m c) (flushed_eq m c) fun i =>
    ⟨t0_7, (flush0_2 t0_7).mpr rfl, by
      show i ∈ ((View.whole main_v18).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

end Cert.KernelIdeal.Accum

end
-- ==== Proof.KernelRun.lean ====
/-
  The kernel program's run, read as a value, and its two operands named.

  Before the call the host forms the call's operands with the very operations the reference uses: the
  interior of `w` flattened to [32, 262144], and the sparse product (a gather of `z` by `col`, scaled by
  `vals`, summed into rows by `row`, transposed). They are carried as those functions of the arguments and
  never opened. After the call the host reshapes the one-entry output array to a scalar, which does not move
  the entry. So the program ends with its result at the total over the eight stretches of the squared
  differences of the two operands, times the float word of 0.03125, and with its arguments as they were.
-/
import proofs.«159889_j25202868093603_1_alg».proof.Proof.Final
import proofs.«159889_j25202868093603_1_alg».proof.Proof.Gen.ReferenceIdeal.Read
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.KernelRun

open Cert.KernelIdeal Cert.KernelIdeal.Gen Cert.SqErr Idealize.ShloMosaic.ValueIdx

variable (m : (ℓ : Loc nD τ sig) → Buf (Elt Ideal) ℓ) (ρ : Dev nD → PrngReg)

/-- The call's first operand is the reference's flattened interior of the first argument. -/
theorem opA_eq (c : Dev nD) :
    Accum.opA m c = Cert.ReferenceIdeal.Read.val_main_v17 (F := Ideal) (m ((c.tc : Thread nD τ).loc main_arg0)) := by
  unfold Accum.opA
  show StableHlo.after hostOps0 (fun b => m (c, b)) (Proc.devRef .tc main_v17) = _
  after_results
  rfl

/-- The call's second operand is the reference's sparse product of the other four arguments. -/
theorem opB_eq (c : Dev nD) :
    Accum.opB m c = Cert.ReferenceIdeal.Read.val_main_v14 (F := Ideal) (m ((c.tc : Thread nD τ).loc main_arg1))
      (m ((c.tc : Thread nD τ).loc main_arg2)) (m ((c.tc : Thread nD τ).loc main_arg3)) (m ((c.tc : Thread nD τ).loc main_arg4)) := by
  unfold Accum.opB
  show StableHlo.after hostOps0 (fun b => m (c, b)) (Proc.devRef .tc main_v14) = _
  after_results
  rfl

/-- The program's result: one scalar. -/
def out (c : Dev nD) : Buf (Elt Ideal) ((c.tc : Thread nD τ).loc main_v19) :=
  fun _ => Accum.total m c * Ideal.ofBits .f32 0x3D000000#32

/-- The reshape after the call reads the output array's one entry. -/
theorem tail_eq (c : Dev nD) :
    Pipeline.afterTail₀ cfgs (dats m) 0 (V0 m) [hostOps1] c main_v19 = out m c := by
  unfold Pipeline.afterTail₀
  show StableHlo.after hostOps1 _ (Proc.devRef .tc main_v19) = _
  after_results
  rw [show Pipeline.withArrays (cfgs 0).spec c (V0 m c) (fun w => (dats m 0 c).arrAt w (cfgs 0).N) (Proc.tc.devRef main_v18)
        = Accum.result m c from
      (Pipeline.withArrays_arr spec0 launch0.win.arr_inj c _ _ 2).trans (Accum.final m c)]
  funext i
  rfl

/-- Every weakly fair execution of the program ends with its result at `out` and its five arguments unchanged. -/
theorem run : θ_run defs (onTc (τ := τ) (main (F := Ideal))) ⟨m, fun _ => 0, ρ⟩ (fun r => ∀ c : Dev nD,
      r.2.mem ((c.tc : Thread nD τ).loc main_v19) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v19 (Pipeline.mem_restRefs_of main_v19 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelRun

end
-- ==== Proof.RefValue.lean ====
/-
  The reference's result, on the extended reals.

  The reference forms the two [32, 262144] arrays `A` (the interior of `w`, flattened) and `B` (the sparse
  product), squares their entrywise difference, sums each row from zero, sums the 32 row sums from zero, and
  divides by 32.0. Zero added to a sum changes nothing, the quotient by 32.0 is the product with 0.03125, and
  the sum over rows of whole rows is the sum over the eight stretches of each stretch's sum over all rows: so
  the result is `(Σ_t Σ_r Σ_l (A (r, 32768 t + l) - B (r, 32768 t + l))²) · 0.03125`.
-/
import proofs.«159889_j25202868093603_1_alg».proof.Proof.Gen.ReferenceIdeal.Read
import proofs.«159889_j25202868093603_1_alg».proof.Proof.SumLaw

noncomputable section

open scoped BigOperators

namespace Cert.ReferenceIdeal.RefValue

open Cert.ReferenceIdeal Cert.ReferenceIdeal.Gen Cert.ReferenceIdeal.Read Idealize.ShloMosaic Idealize.ShloMosaic.ValueIdx Cert.SqErr

/-- An index of a 32-vector is its one coordinate. -/
def idx1Equiv : Fin 32 ≃ (⟨1, ![32]⟩ : Shape).Idx where
  toFun r := ix1 r
  invFun j := j 0
  left_inv _ := rfl
  right_inv j := (eq_ix1 j).symm

theorem sum_idx1 (g : (⟨1, ![32]⟩ : Shape).Idx → EReal) : ∑ j, g j = ∑ r : Fin 32, g (ix1 r) :=
  (Equiv.sum_comp idx1Equiv g).symm

/-- The reference's result is the total over the eight stretches of the squared differences of its two
    arrays, times the float word of 0.03125. -/
theorem result_apply (x0 : (⟨S32x1x514x514, .f32⟩ : BufTy).Contents (Elt Ideal)) (x1 : (⟨S32x262144, .f32⟩ : BufTy).Contents (Elt Ideal))
    (x2 x3 : (⟨S1308672, .i32⟩ : BufTy).Contents (Elt Ideal)) (x4 : (⟨S1308672, .f32⟩ : BufTy).Contents (Elt Ideal)) (i : S_.Idx) :
    val_main_v22 (F := Ideal) x0 x1 x2 x3 x4 i
      = (∑ t : Fin 8, tileSum (val_main_v17 (F := Ideal) x0) (val_main_v14 (F := Ideal) x1 x2 x3 x4) t)
          * Ideal.ofBits .f32 0x3D000000#32 := by
  rw [val_main_v22_apply, val_main_v21_apply]
  show Ideal.div (Ideal.ofBits .f32 0x00000000#32 + ∑ j : S32.Idx, val_main_v20 (F := Ideal) x0 x1 x2 x3 x4 j)
      (Ideal.ofBits .f32 0x42000000#32) = _
  rw [div_32, Ideal.ofBits_zero_f32, zero_add]
  refine congrArg (· * Ideal.ofBits .f32 0x3D000000#32) ?_
  rw [← rows_eq_tiles]
  refine (sum_idx1 _).trans (Finset.sum_congr rfl fun r _ => ?_)
  rw [val_main_v20_apply]
  show Ideal.ofBits .f32 0x00000000#32 + _ = _
  rw [Ideal.ofBits_zero_f32, zero_add]
  refine Finset.sum_congr rfl fun k _ => ?_
  have e : idx_main_v20 (ix1 r) k = ix2 r k :=
    funext fun a => Fin.ext (by match a with | ⟨0, _⟩ => rfl | ⟨1, _⟩ => rfl)
  rw [e, val_main_v19_apply, val_main_v18_apply]
  rfl

end Cert.ReferenceIdeal.RefValue

end
-- ==== Proof.lean ====
/-
  The mean, over 32 samples, of the squared residual of a sparse linear system: the proof of the certificate's
  five claims.

  Both programs first form, on the host and by the same operations, two [32, 262144] arrays: `A`, the interior of
  `w` flattened, and `B`, the sparse product (a gather of `z` by `col`, scaled by `vals`, summed into rows by
  `row`, transposed). The reference then squares `A - B` entrywise, sums each of the 32 rows over its 262144
  columns, sums the 32 row sums, and divides by 32.0. The kernel walks a grid of eight points; point `t` takes
  columns `32768 t … 32768 t + 32767` of all 32 rows of `A` and `B`, sums the squared differences over that
  stretch (each row, then the rows), and adds the sum to a running total that the first point resets to zero;
  the last point multiplies the total by 0.03125 and stores it.

  On the extended reals the two results are one number. Addition there is commutative and associative,
  infinities included, so the sum over rows of whole rows is the sum over stretches of each stretch's sum over
  all rows; a sum started from zero is the sum; and the quotient by 32.0 is the product with 0.03125 because the
  two float words denote exactly 32 and 1/32. No finiteness of the inputs is used for the value: the two
  programs compute `A` and `B` by the same operations of the same arguments, and these are carried as they
  are.

  The three frames: the kernel program's, at both readings, is the generated frame of its one call with the
  host operations around it; the reference, a straight line of host operations, runs to its generated result
  with the arguments untouched. The idealized kernel is the kernel's own text read on the extended reals: no
  operation was rewritten.
-/
import proofs.«159889_j25202868093603_1_alg».proof.Defs
import proofs.«159889_j25202868093603_1_alg».proof.Proof.Gen.Kernel
import proofs.«159889_j25202868093603_1_alg».proof.Proof.Gen.Kernel.Skeleton
import proofs.«159889_j25202868093603_1_alg».proof.Proof.Gen.Kernel.Launch
import proofs.«159889_j25202868093603_1_alg».proof.Proof.Gen.Kernel.Points
import proofs.«159889_j25202868093603_1_alg».proof.Proof.Gen.Kernel.Frame
import proofs.«159889_j25202868093603_1_alg».proof.Proof.Gen.KernelIdeal
import proofs.«159889_j25202868093603_1_alg».proof.Proof.Gen.KernelIdeal.Skeleton
import proofs.«159889_j25202868093603_1_alg».proof.Proof.Gen.KernelIdeal.Launch
import proofs.«159889_j25202868093603_1_alg».proof.Proof.Gen.KernelIdeal.Points
import proofs.«159889_j25202868093603_1_alg».proof.Proof.Gen.KernelIdeal.Frame
import proofs.«159889_j25202868093603_1_alg».proof.Proof.Gen.ReferenceIdeal
import proofs.«159889_j25202868093603_1_alg».proof.Proof.Gen.ReferenceIdeal.Run
import proofs.«159889_j25202868093603_1_alg».proof.Proof.Gen.ReferenceIdeal.Read
import proofs.«159889_j25202868093603_1_alg».proof.Proof.Gen.Pre_finite_inputs
import proofs.«159889_j25202868093603_1_alg».proof.Proof.KernelRun
import proofs.«159889_j25202868093603_1_alg».proof.Proof.RefValue
import Idealize.ShloMosaic.Adequacy
import Idealize.ShloMosaic.Init

noncomputable section

namespace Cert.Proof

open Idealize.ShloMosaic Idealize.SL.Sem

/-- The kernel program, as printed: its one call runs under the generated frame, the host operations around it
    touch no argument. -/
theorem frame_k : Cert.frame_Kernel := fun m ρ _ => Cert.Kernel.Gen.frame m ρ

/-- The same program read on the extended reals. -/
theorem frame_ki : Cert.frame_KernelIdeal := fun m ρ _ => Cert.KernelIdeal.Gen.frame m ρ

/-- The reference: its run to the result, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- Both programs end with the same scalar: the total over the eight stretches of the squared differences of
    `A` and `B`, times the float word of 0.03125. The kernel's `A` and `B` are the reference's, of arguments that
    agree. -/
theorem algebraic : Cert.algebraic_KernelIdeal_ReferenceIdeal := by
  intro m ρ m' ρ' _ hagree
  refine ⟨fun c => Cert.KernelIdeal.KernelRun.out m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2.1, (hagree c).2.2.2.1,
    (hagree c).2.2.2.2]
  funext i
  rw [Cert.ReferenceIdeal.RefValue.result_apply]
  show _ = Cert.KernelIdeal.Accum.total m c * Ideal.ofBits .f32 0x3D000000#32
  unfold Cert.KernelIdeal.Accum.total
  rw [Cert.KernelIdeal.KernelRun.opA_eq, Cert.KernelIdeal.KernelRun.opB_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
